-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128x128 .f32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S800000 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128x256 : Shape := ⟨2, ![128, 256]⟩
abbrev S256 : Shape := ⟨1, ![256]⟩
abbrev S1x256 : Shape := ⟨2, ![1, 256]⟩
abbrev S5000x128 : Shape := ⟨2, ![5000, 128]⟩
abbrev S5000x256 : Shape := ⟨2, ![5000, 256]⟩

abbrev nBuf : Space → Nat
  | .hbm => 36
  | .vmem => 13
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x1, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S1x128, .f32⟩
  | .hbm, ⟨31, _⟩ => ⟨S128x256, .f32⟩
  | .hbm, ⟨32, _⟩ => ⟨S256, .f32⟩
  | .hbm, ⟨33, _⟩ => ⟨S1x256, .f32⟩
  | .hbm, ⟨34, _⟩ => ⟨S50000x128, .f32⟩
  | .hbm, ⟨35, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x256, .f32⟩
  | .local _ .vmem, ⟨8, _⟩ => ⟨S1x256, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21_0 : Ref sig .tc := ⟨.hbm, 34, rfl⟩
abbrev main_v21_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  concatenates_S128x128_S128x128_S128x256_d1 : Shape.Concatenates [S128x128, S128x128] S128x256 1
  concatenates_S128_S128_S256_d0 : Shape.Concatenates [S128, S128] S256 0
  shapeCasts_S256_S1x256 : S256.ShapeCasts S1x256
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  slices_S5000x256_o0_0_S5000x128 : S5000x256.Slices ![0, 0] S5000x128
  slices_S5000x256_o0_128_S5000x128 : S5000x256.Slices ![0, 128] S5000x128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .f32 = 32 ∨ (Rect.block (s := S128x256) S128x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v21_1) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S128x128 : Shape := ⟨2, ![128, 128]⟩
abbrev S128 : Shape := ⟨1, ![128]⟩
abbrev S1x800000 : Shape := ⟨2, ![1, 800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S800000x1, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S1x128, .f32⟩
  | .hbm, ⟨32, _⟩ => ⟨S50000x128, .f32⟩
  | .hbm, ⟨33, _⟩ => ⟨S50000x128, .f32⟩
  | .hbm, ⟨34, _⟩ => ⟨S50000x128, .f32⟩
  | .hbm, ⟨35, _⟩ => ⟨S50000x128, .f32⟩
  | .hbm, ⟨36, _⟩ => ⟨S_, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call1_cst : Ref sig .tc := ⟨.hbm, 43, rfl⟩
abbrev main_call1_v0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_call2_cst : Ref sig .tc := ⟨.hbm, 50, rfl⟩
abbrev main_call2_v0 : Ref sig .tc := ⟨.hbm, 51, rfl⟩
abbrev main_v33 : Ref sig .tc := ⟨.hbm, 52, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.HeadSpec.lean ====
/-
  What both programs compute, stated once over the extended reals and over no program.

  A node's hidden features are one graph-convolution layer followed by a rectifier: for node `r` and feature `k`,
  `hid k = max ((∑ j, a j · wrel j k) + b k + ∑ j, x j · wroot j k) 0`, where `a` is row `r` of the aggregated
  neighbour messages and `x` row `r` of the node features. The grouping is the one both programs use: the
  neighbour product first, the bias added to it, the root product added last; nothing here is re-associated.
  A head (the mean head or the log-deviation head) is a second affine layer and rectifier on the hidden row:
  `out = max ((∑ k, hid k · w k) + b) 0`, with `w` one column of that head's weight matrix and `b` that
  column's bias. `head` lays these entries out as the 50000 × 128 result.
-/
import Idealize.ShloMosaic.Lib.ValueIdx

noncomputable section

open scoped BigOperators

namespace Cert.GraphConvHead

open Idealize.ShloMosaic Idealize.ShloMosaic.ValueIdx

/-- Feature `k` of a node's hidden row: the neighbour row `a` against column `k` of `wrel`, plus the bias,
    plus the node's own row `x` against column `k` of `wroot`, rectified. -/
def hid (a x : Fin 128 → EReal) (wrel wroot : Fin 128 → Fin 128 → EReal) (b : Fin 128 → EReal) (k : Fin 128) : EReal :=
  max ((∑ j : Fin 128, a j * wrel j k) + b k + ∑ j : Fin 128, x j * wroot j k) 0

/-- One entry of a head: the hidden row `h` against one weight column `w`, plus that column's bias, rectified. -/
def out (h w : Fin 128 → EReal) (b : EReal) : EReal :=
  max ((∑ k : Fin 128, h k * w k) + b) 0

/-- A head entry depends on its inputs entry by entry: equal rows, weights and biases give equal entries. -/
theorem entry_congr {a a' x x' : Fin 128 → EReal} {wrel wrel' wroot wroot' : Fin 128 → Fin 128 → EReal}
    {b b' w w' : Fin 128 → EReal} {c c' : EReal}
    (ha : ∀ j, a j = a' j) (hx : ∀ j, x j = x' j) (hrel : ∀ j k, wrel j k = wrel' j k)
    (hroot : ∀ j k, wroot j k = wroot' j k) (hb : ∀ k, b k = b' k) (hw : ∀ k, w k = w' k) (hc : c = c') :
    out (hid a x wrel wroot b) w c = out (hid a' x' wrel' wroot' b') w' c' := by
  obtain rfl : a = a' := funext ha
  obtain rfl : x = x' := funext hx
  obtain rfl : wrel = wrel' := funext fun j => funext (hrel j)
  obtain rfl : wroot = wroot' := funext fun j => funext (hroot j)
  obtain rfl : b = b' := funext hb
  obtain rfl : w = w' := funext hw
  rw [hc]

/-- The node-by-feature arrays, the square weight matrices and the bias vectors. -/
abbrev Nodes : Shape := ⟨2, ![50000, 128]⟩
abbrev Weights : Shape := ⟨2, ![128, 128]⟩
abbrev Bias : Shape := ⟨1, ![128]⟩

/-- Entry `(r, q)` of a head whose weights are `w` and bias `b`, from the aggregated messages `agg`, the node
    features `x` and the convolution's parameters. It reads row `r` of `agg` and of `x` only. -/
def headAt (agg x : Nodes.Idx → EReal) (wrel : Weights.Idx → EReal) (brel : Bias.Idx → EReal)
    (wroot w : Weights.Idx → EReal) (b : Bias.Idx → EReal) (r : Fin 50000) (q : Fin 128) : EReal :=
  out (hid (fun j => agg (ix2 r j)) (fun j => x (ix2 r j)) (fun j k => wrel (ix2 j k)) (fun j k => wroot (ix2 j k))
      (fun k => brel (ix1 k)))
    (fun k => w (ix2 k q)) (b (ix1 q))

/-- A head as a whole array. -/
def head (agg x : Nodes.Idx → EReal) (wrel : Weights.Idx → EReal) (brel : Bias.Idx → EReal)
    (wroot w : Weights.Idx → EReal) (b : Bias.Idx → EReal) : Nodes.Idx → EReal :=
  fun i => headAt agg x wrel brel wroot w b (i 0) (i 1)

end Cert.GraphConvHead

end
-- ==== Proof.LibPlainDot.lean ====
/-
  A plain matrix product read at one entry, on the extended reals.

  For the dimension numbers of an `M × K` by `K × N` product (the left operand contracted on its second axis, the
  right on its first, no batch axis: `DotDims.plain M K N`), the contraction runs over one axis of extent `K`, and
  at result entry `(p, q)` and contraction position `k` the left operand is read at `(p, k)` and the right at
  `(k, q)`. So the product into a zero accumulator, and equally the host's `dot_general`, is at `(p, q)` the sum
  `∑ k, L (p, k) · R (k, q)` over `Fin K`: no rounding, no chunk order, and no finiteness assumed (the sum is the
  extended reals' own). Any extents, any operand formats.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the result's row coordinate. -/
theorem lhs0 (j : (⟨2, ![M, N]⟩ : Shape).Idx) (k : (DotDims.plain M K N).contr.Idx) :
    ((DotDims.plain M K N).lhsIdx j k 0).val = (j 0).val := rfl
/-- The left operand's column coordinate is the contraction position. -/
theorem lhs1 (j : (⟨2, ![M, N]⟩ : Shape).Idx) (k : (DotDims.plain M K N).contr.Idx) :
    ((DotDims.plain M K N).lhsIdx j k 1).val = (k ⟨0, Nat.one_pos⟩).val := rfl
/-- The right operand's row coordinate is the contraction position. -/
theorem rhs0 (j : (⟨2, ![M, N]⟩ : Shape).Idx) (k : (DotDims.plain M K N).contr.Idx) :
    ((DotDims.plain M K N).rhsIdx j k 0).val = (k ⟨0, Nat.one_pos⟩).val := rfl
/-- The right operand's column coordinate is the result's column coordinate. -/
theorem rhs1 (j : (⟨2, ![M, N]⟩ : Shape).Idx) (k : (DotDims.plain M K N).contr.Idx) :
    ((DotDims.plain M K N).rhsIdx j k 1).val = (j 1).val := rfl

/-- The contraction's sum at entry `(p, q)`, re-indexed by the contraction axis's one coordinate. -/
theorem sum_apply {φ₁ φ₂ : FTy} (L : FVec Ideal ⟨2, ![M, K]⟩ φ₁) (R : FVec Ideal ⟨2, ![K, N]⟩ φ₂) (p : Fin M) (q : Fin N) :
    (∑ k : (DotDims.plain M K N).contr.Idx, L ((DotDims.plain M K N).lhsIdx (ix2 p q) k) * R ((DotDims.plain M K N).rhsIdx (ix2 p q) k))
      = ∑ k : Fin K, L (ix2 p k) * R (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs0 M K N _ _
      | ⟨1, _⟩ => exact (lhs1 M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs0 M K N _ _).trans hk
      | ⟨1, _⟩ => exact rhs1 M K N _ _)
  rw [el, er]

/-- A matrix product into the zero accumulator, at entry `(p, q)`: `∑ k, L (p, k) · R (k, q)`. -/
theorem matmul_zero_apply {φ₁ φ₂ : FTy} (prec : Option ContractPrecision) (L : FVec Ideal ⟨2, ![M, K]⟩ φ₁)
    (R : FVec Ideal ⟨2, ![K, N]⟩ φ₂) (p : Fin M) (q : Fin N) :
    FloatOps.matmul (DotDims.plain M K N) prec L R (constant (F := Ideal) ⟨2, ![M, N]⟩ .f32 0x00000000#32) (ix2 p q)
      = ∑ k : Fin K, L (ix2 p k) * R (ix2 k q) :=
  (Ideal.matmul_constant_zero_apply _ prec L R (ix2 p q)).trans (sum_apply M K N L R p q)

/-- The host's `dot_general` with the same dimension numbers, at entry `(p, q)`: the same sum. -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q)
      = ∑ k : Fin K, L (ix2 p k) * R (ix2 k q) :=
  (Ideal.dotGeneral_apply _ prec sched L R (ix2 p q)).trans (sum_apply M K N L R p q)

end Idealize.ShloMosaic.PlainDot

end
-- ==== Proof.HeadPayload.lean ====
/-
  The kernel body's arithmetic at one entry.

  At a grid point the body loads a 5000-row block of the aggregated messages and of the node features, the two
  convolution weight matrices, the convolution bias as one row, and the two heads' weights and biases laid side by
  side (128 × 256 and 1 × 256). It forms the hidden block (two products into zero accumulators, the bias row
  repeated down the rows, the rectifier) and then ONE product of the hidden block with the 256 side-by-side columns,
  plus the bias row, rectified. Changes of float format are the identity on the extended reals.
  Read at row `p` and side-by-side column `q`, that value is one head entry in the sense of the specification:
  the hidden row of row `p` of the two blocks, against column `q` of the side-by-side weights, plus entry `q` of
  the side-by-side bias. Nothing is assumed finite: each step is the extended reals' own sum, product or maximum.
-/
import proofs.«132541_j67774583931485_2_alg».proof.Proof.Gen.KernelIdeal.Skeleton
import proofs.«132541_j67774583931485_2_alg».proof.Proof.HeadSpec
import proofs.«132541_j67774583931485_2_alg».proof.Proof.LibPlainDot
import Idealize.ShloMosaic.Lib.Pipeline.Value
import Idealize.ShloMosaic.Lib.ValueLayout

noncomputable section

open scoped BigOperators

namespace Cert.KernelIdeal.HeadValue

open Cert.KernelIdeal Cert.KernelIdeal.Gen Idealize.ShloMosaic Idealize.ShloMosaic.ValueIdx Cert.GraphConvHead

/-- The two products' dimension numbers are the plain ones: rows by columns, one contracted axis of extent 128. -/
theorem dot128_eq : dot_S5000x128_S128x128_S5000x128_1_0_0_1_n_n = DotDims.plain 5000 128 128 := rfl
theorem dot256_eq : dot_S5000x128_S128x256_S5000x256_1_0_0_1_n_n = DotDims.plain 5000 128 256 := rfl

/-- The hidden block the body forms from its first five loads, before it is narrowed for the last product. -/
def hiddenBlock (P0 P1 : FVec Ideal S5000x128 .f32) (P2 P3 : FVec Ideal S128x128 .f32) (P4 : FVec Ideal S1x128 .f32) :
    FVec Ideal S5000x128 .f32 :=
  maximumf
    (addf
      (addf
        (matmul dot_S5000x128_S128x128_S5000x128_1_0_0_1_n_n none
          (truncf .bf16 (shapeCast S5000x128 P0 shapeCasts_S5000x128_S5000x128) bitsLt_bf16_f32)
          (truncf .bf16 P2 bitsLt_bf16_f32) (constant S5000x128 .f32 0x00000000#32))
        (broadcastTo S5000x128 (shapeCast S1x128 P4 shapeCasts_S1x128_S1x128) broadcasts_S1x128_S5000x128))
      (matmul dot_S5000x128_S128x128_S5000x128_1_0_0_1_n_n none (truncf .bf16 P1 bitsLt_bf16_f32)
        (truncf .bf16 P3 bitsLt_bf16_f32) (constant S5000x128 .f32 0x00000000#32)))
    (broadcast S5000x128 (Scalar.ofBits (F := Ideal) .f32 0x00000000#32))

/-- The body's 5000 × 256 value is the last product over the hidden block. -/
theorem pay_eq (P0 P1 : FVec Ideal S5000x128 .f32) (P2 P3 : FVec Ideal S128x128 .f32) (P4 : FVec Ideal S1x128 .f32)
    (P5 : FVec Ideal S128x256 .f32) (P6 : FVec Ideal S1x256 .f32) :
    k0_pay1 (F := Ideal) P0 P1 P2 P3 P4 P5 P6
      = maximumf
          (addf
            (matmul dot_S5000x128_S128x256_S5000x256_1_0_0_1_n_n none
              (truncf .bf16 (hiddenBlock P0 P1 P2 P3 P4) bitsLt_bf16_f32)
              (truncf .bf16 (shapeCast S128x256 P5 shapeCasts_S128x256_S128x256) bitsLt_bf16_f32)
              (constant S5000x256 .f32 0x00000000#32))
            (broadcastTo S5000x256 (shapeCast S1x256 P6 shapeCasts_S1x256_S1x256) broadcasts_S1x256_S5000x256))
          (broadcast S5000x256 (Scalar.ofBits (F := Ideal) .f32 0x00000000#32)) := rfl

/-- The zero word is the real number zero. -/
theorem zero_word : Scalar.ofBits (F := Ideal) .f32 0x00000000#32 = (0 : EReal) := Ideal.ofBits_zero_f32

/-- Entry `(p, k)` of the hidden block is feature `k` of the hidden row of row `p` of the two loaded blocks. -/
theorem hiddenBlock_at (P0 P1 : FVec Ideal S5000x128 .f32) (P2 P3 : FVec Ideal S128x128 .f32) (P4 : FVec Ideal S1x128 .f32)
    (p : Fin 5000) (k : Fin 128) :
    hiddenBlock P0 P1 P2 P3 P4 (ix2 p k)
      = hid (fun j => P0 (ix2 p j)) (fun j => P1 (ix2 p j)) (fun j k => P2 (ix2 j k)) (fun j k => P3 (ix2 j k))
          (fun k => P4 (ix2 (0 : Fin 1) k)) k := by
  have h1 : matmul dot_S5000x128_S128x128_S5000x128_1_0_0_1_n_n none
      (truncf .bf16 (shapeCast S5000x128 P0 shapeCasts_S5000x128_S5000x128) bitsLt_bf16_f32)
      (truncf .bf16 P2 bitsLt_bf16_f32) (constant S5000x128 .f32 0x00000000#32) (ix2 p k)
        = ∑ j : Fin 128, P0 (ix2 p j) * P2 (ix2 j k) := by
    rw [shapeCast_self]
    exact PlainDot.matmul_zero_apply 5000 128 128 none _ _ p k
  have h2 : matmul dot_S5000x128_S128x128_S5000x128_1_0_0_1_n_n none (truncf .bf16 P1 bitsLt_bf16_f32)
      (truncf .bf16 P3 bitsLt_bf16_f32) (constant S5000x128 .f32 0x00000000#32) (ix2 p k)
        = ∑ j : Fin 128, P1 (ix2 p j) * P3 (ix2 j k) :=
    PlainDot.matmul_zero_apply 5000 128 128 none _ _ p k
  have h3 : broadcastTo S5000x128 (shapeCast S1x128 P4 shapeCasts_S1x128_S1x128) broadcasts_S1x128_S5000x128 (ix2 p k)
        = P4 (ix2 (0 : Fin 1) k) := by
    rw [shapeCast_self]
    exact broadcastTo_1b_ab_apply _ _ p k
  show max (_ + _ + _) _ = max (_ + _ + _) 0
  rw [h1, h2, h3, zero_word]
  rfl

/-- THE BODY'S VALUE AT AN ENTRY: row `p`, side-by-side column `q`. -/
theorem pay_at (P0 P1 : FVec Ideal S5000x128 .f32) (P2 P3 : FVec Ideal S128x128 .f32) (P4 : FVec Ideal S1x128 .f32)
    (P5 : FVec Ideal S128x256 .f32) (P6 : FVec Ideal S1x256 .f32) (p : Fin 5000) (q : Fin 256) :
    k0_pay1 (F := Ideal) P0 P1 P2 P3 P4 P5 P6 (ix2 p q)
      = out (hid (fun j => P0 (ix2 p j)) (fun j => P1 (ix2 p j)) (fun j k => P2 (ix2 j k)) (fun j k => P3 (ix2 j k))
            (fun k => P4 (ix2 (0 : Fin 1) k)))
          (fun k => P5 (ix2 k q)) (P6 (ix2 (0 : Fin 1) q)) := by
  have h1 : matmul dot_S5000x128_S128x256_S5000x256_1_0_0_1_n_n none
      (truncf .bf16 (hiddenBlock P0 P1 P2 P3 P4) bitsLt_bf16_f32)
      (truncf .bf16 (shapeCast S128x256 P5 shapeCasts_S128x256_S128x256) bitsLt_bf16_f32)
      (constant S5000x256 .f32 0x00000000#32) (ix2 p q)
        = ∑ k : Fin 128, hiddenBlock P0 P1 P2 P3 P4 (ix2 p k) * P5 (ix2 k q) := by
    rw [shapeCast_self]
    exact PlainDot.matmul_zero_apply 5000 128 256 none _ _ p q
  have h3 : broadcastTo S5000x256 (shapeCast S1x256 P6 shapeCasts_S1x256_S1x256) broadcasts_S1x256_S5000x256 (ix2 p q)
        = P6 (ix2 (0 : Fin 1) q) := by
    rw [shapeCast_self]
    exact broadcastTo_1b_ab_apply _ _ p q
  have hs : (∑ k : Fin 128, hiddenBlock P0 P1 P2 P3 P4 (ix2 p k) * P5 (ix2 k q))
      = ∑ k : Fin 128, hid (fun j => P0 (ix2 p j)) (fun j => P1 (ix2 p j)) (fun j k => P2 (ix2 j k))
          (fun j k => P3 (ix2 j k)) (fun k => P4 (ix2 (0 : Fin 1) k)) k * P5 (ix2 k q) :=
    Finset.sum_congr rfl fun k _ => by rw [hiddenBlock_at]
  rw [pay_eq]
  show max (_ + _) _ = max (_ + _) 0
  rw [h1, h3, zero_word, hs]
  rfl

end Cert.KernelIdeal.HeadValue

end
-- ==== Proof.HeadOperands.lean ====
/-
  The arrays the grid reads that the host prepared first.

  Before the grid starts, the host lays the convolution bias as one row (128 entries as 1 × 128), sets the two
  heads' weight matrices side by side (128 × 256: the mean head's columns first, then the log-deviation head's),
  and does the same with the two heads' biases (256 entries, then laid as one row 1 × 256). Read at an index:
  the bias row at `(0, k)` is the bias at `k`; the side-by-side weights at `(k, q)` are the mean head's at
  `(k, q)` for `q < 128` and the log-deviation head's at `(k, q - 128)` otherwise; likewise the biases.
-/
import proofs.«132541_j67774583931485_2_alg».proof.Proof.Gen.KernelIdeal.Frame
import Idealize.ShloMosaic.Lib.StableHlo.Run
import Idealize.ShloMosaic.Lib.Pipeline.Value
import Idealize.ShloMosaic.Lib.ValueLayout

noncomputable section

namespace Cert.KernelIdeal.HeadValue

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- Column `q` of the first half, and of the second half, of the 256 side-by-side columns. -/
abbrev lo (q : Fin 128) : Fin 256 := ⟨q.val, by have := q.isLt; omega⟩
abbrev hi (q : Fin 128) : Fin 256 := ⟨q.val + 128, by have := q.isLt; omega⟩

/-- The convolution bias as the grid finds it: the 128 entries laid as one row. -/
theorem V_biasRow (c : Dev nD) :
    (V m c main_v17 : S1x128.Idx → EReal)
      = shapeCast S1x128 (m ((c : Thread nD τ).loc main_arg4)) shapeCasts_S128_S1x128 := by
  dsimp only [Gen.V, Gen.hostOps0]; after_results <;> rfl

/-- The heads' weights as the grid finds them: the two matrices side by side. -/
theorem V_sideWeights (c : Dev nD) :
    (V m c main_v18 : S128x256.Idx → EReal)
      = concatenate S128x256 1 [⟨S128x128, m ((c : Thread nD τ).loc main_arg6)⟩, ⟨S128x128, m ((c : Thread nD τ).loc main_arg8)⟩]
          concatenates_S128x128_S128x128_S128x256_d1 := by
  dsimp only [Gen.V, Gen.hostOps0]; after_results <;> rfl

/-- The heads' biases as the grid finds them: the two vectors end to end, laid as one row. -/
theorem V_sideBias (c : Dev nD) :
    (V m c main_v20 : S1x256.Idx → EReal)
      = shapeCast S1x256 (concatenate S256 0 [⟨S128, m ((c : Thread nD τ).loc main_arg7)⟩, ⟨S128, m ((c : Thread nD τ).loc main_arg9)⟩]
          concatenates_S128_S128_S256_d0) shapeCasts_S256_S1x256 := by
  dsimp only [Gen.V, Gen.hostOps0]; after_results <;> rfl

/-- The bias row at `(0, k)` is the convolution bias at `k`. -/
theorem biasRow_at (c : Dev nD) (k : Fin 128) :
    (V m c main_v17 : S1x128.Idx → EReal) (ix2 (0 : Fin 1) k) = m ((c : Thread nD τ).loc main_arg4) (ix1 k) := by
  rw [V_biasRow]
  exact shapeCast_a_1a_apply _ _ (0 : Fin 1) k

/-- The side-by-side weights at a column of the first half are the mean head's. -/
theorem sideWeights_lo (c : Dev nD) (k q : Fin 128) :
    (V m c main_v18 : S128x256.Idx → EReal) (ix2 k (lo q)) = m ((c : Thread nD τ).loc main_arg6) (ix2 k q) := by
  rw [V_sideWeights]
  refine concatenate_pair_apply_left (t := S128x256) (s₁ := S128x128) (s₂ := S128x128) (1 : Fin 2) _ _ _ (ix2 k (lo q)) rfl (ix2 k q) fun b => ?_
  match b with
  | ⟨0, _⟩ => rfl
  | ⟨1, _⟩ => rfl

/-- The side-by-side weights at a column of the second half are the log-deviation head's. -/
theorem sideWeights_hi (c : Dev nD) (k q : Fin 128) :
    (V m c main_v18 : S128x256.Idx → EReal) (ix2 k (hi q)) = m ((c : Thread nD τ).loc main_arg8) (ix2 k q) := by
  rw [V_sideWeights]
  refine concatenate_pair_apply_right (t := S128x256) (s₁ := S128x128) (s₂ := S128x128) (1 : Fin 2) _ _ _ (ix2 k (hi q)) rfl rfl (ix2 k q) (fun b hb => ?_) rfl
  match b with
  | ⟨0, _⟩ => rfl
  | ⟨1, _⟩ => exact absurd rfl hb

/-- The side-by-side bias row at a column of the first half is the mean head's bias. -/
theorem sideBias_lo (c : Dev nD) (q : Fin 128) :
    (V m c main_v20 : S1x256.Idx → EReal) (ix2 (0 : Fin 1) (lo q)) = m ((c : Thread nD τ).loc main_arg7) (ix1 q) := by
  rw [V_sideBias]
  refine (shapeCast_a_1a_apply _ _ (0 : Fin 1) (lo q)).trans ?_
  refine concatenate_pair_apply_left (t := S256) (s₁ := S128) (s₂ := S128) (0 : Fin 1) _ _ _ (ix1 (lo q)) rfl (ix1 q) fun b => ?_
  match b with
  | ⟨0, _⟩ => rfl

/-- The side-by-side bias row at a column of the second half is the log-deviation head's bias. -/
theorem sideBias_hi (c : Dev nD) (q : Fin 128) :
    (V m c main_v20 : S1x256.Idx → EReal) (ix2 (0 : Fin 1) (hi q)) = m ((c : Thread nD τ).loc main_arg9) (ix1 q) := by
  rw [V_sideBias]
  refine (shapeCast_a_1a_apply _ _ (0 : Fin 1) (hi q)).trans ?_
  refine concatenate_pair_apply_right (t := S256) (s₁ := S128) (s₂ := S128) (0 : Fin 1) _ _ _ (ix1 (hi q)) rfl rfl (ix1 q) (fun b hb => ?_) rfl
  match b with
  | ⟨0, _⟩ => exact absurd rfl hb

end Cert.KernelIdeal.HeadValue

end
-- ==== Proof.HeadBlocks.lean ====
/-
  The kernel's two heads, and the body's two stores at a block position.

  The heads are the specification's, taken over the arrays the grid works from: the aggregated messages as the grid
  finds them in its first window and the arguments as launched. The body stores twice: the left 128 of its 256
  side-by-side columns into the first result's block and the right 128 into the second's. So at block position
  `(p, q)` the first store holds the body's value at row `p`, side-by-side column `q`, and the second at column
  `q + 128`; by the body's arithmetic at an entry each is a head entry over the loaded blocks. Stated here over
  arbitrary loaded blocks; the blocks of a grid point are put in afterwards.
-/
import proofs.«132541_j67774583931485_2_alg».proof.Proof.Gen.KernelIdeal.Value
import proofs.«132541_j67774583931485_2_alg».proof.Proof.HeadSpec
import proofs.«132541_j67774583931485_2_alg».proof.Proof.HeadPayload
import proofs.«132541_j67774583931485_2_alg».proof.Proof.HeadOperands
import Idealize.ShloMosaic.Lib.Pipeline.Value

noncomputable section

namespace Cert.KernelIdeal.HeadValue

open Cert.KernelIdeal Cert.KernelIdeal.Gen Idealize.ShloMosaic Idealize.ShloMosaic.TcCoe Idealize.SL.Sem
open Idealize.ShloMosaic.ValueIdx Cert.GraphConvHead
open Idealize.ShloMosaic.Pipeline (Dat)

variable (m : (ℓ : Loc nD τ sig) → Buf (Elt Ideal) ℓ) (ρ : Dev nD → PrngReg)

/-- The loads and stores of the body start at the origin of their buffers. -/
theorem originOffsets : (![0, 0] : Fin 2 → Nat) = fun _ => 0 := funext fun a => by fin_cases a <;> rfl

/-- The mean head over the arrays the grid works from. -/
def meanHead (c : Dev nD) : S50000x128.Idx → EReal :=
  head (V m c main_v16) (m ((c : Thread nD τ).loc main_arg0)) (m ((c : Thread nD τ).loc main_arg3))
    (m ((c : Thread nD τ).loc main_arg4)) (m ((c : Thread nD τ).loc main_arg5)) (m ((c : Thread nD τ).loc main_arg6))
    (m ((c : Thread nD τ).loc main_arg7))

/-- The log-deviation head over the arrays the grid works from. -/
def logDevHead (c : Dev nD) : S50000x128.Idx → EReal :=
  head (V m c main_v16) (m ((c : Thread nD τ).loc main_arg0)) (m ((c : Thread nD τ).loc main_arg3))
    (m ((c : Thread nD τ).loc main_arg4)) (m ((c : Thread nD τ).loc main_arg5)) (m ((c : Thread nD τ).loc main_arg8))
    (m ((c : Thread nD τ).loc main_arg9))

/-! ## The body's two stores, at a block position, over the loads as variables -/

/-- The first store at `(p, q)`: the body's value at side-by-side column `q`. -/
theorem firstStore_at (x0 x1 : Vec Ideal S5000x128 .f32) (x2 : Vec Ideal S128x128 .f32) (x3 : Vec Ideal S1x128 .f32)
    (x4 : Vec Ideal S128x128 .f32) (x5 : Vec Ideal S128x256 .f32) (x6 : Vec Ideal S1x256 .f32) (p : Fin 5000) (q : Fin 128) :
    out0_7 (F := Ideal) x0 x1 x2 x3 x4 x5 x6 (ix2 p q)
      = out (hid (fun j => x0 (ix2 p j)) (fun j => x1 (ix2 p j)) (fun j k => x2 (ix2 j k)) (fun j k => x4 (ix2 j k))
            (fun k => x3 (ix2 (0 : Fin 1) k)))
          (fun k => x5 (ix2 k (lo q))) (x6 (ix2 (0 : Fin 1) (lo q))) := by
  unfold out0_7
  simp only [View.ld_unit_zero (S := S5000x128) originOffsets, View.ld_unit_zero (S := S128x128) originOffsets,
    View.ld_unit_zero (S := S1x128) originOffsets, View.ld_unit_zero (S := S128x256) originOffsets,
    View.ld_unit_zero (S := S1x256) originOffsets]
  rw [Value.canon7_eq]
  have e : Value.ix7_0 (ix2 p q) = ix2 p (lo q) :=
    funext fun a => Fin.ext (by match a with | ⟨0, _⟩ => rfl | ⟨1, _⟩ => rfl)
  show k0_pay1 (F := Ideal) x0 x1 x2 x4 x3 x5 x6 (Value.ix7_0 (ix2 p q)) = _
  rw [e]
  exact pay_at x0 x1 x2 x4 x3 x5 x6 p (lo q)

/-- The second store at `(p, q)`: the body's value at side-by-side column `q + 128`. -/
theorem secondStore_at (x0 x1 : Vec Ideal S5000x128 .f32) (x2 : Vec Ideal S128x128 .f32) (x3 : Vec Ideal S1x128 .f32)
    (x4 : Vec Ideal S128x128 .f32) (x5 : Vec Ideal S128x256 .f32) (x6 : Vec Ideal S1x256 .f32) (p : Fin 5000) (q : Fin 128) :
    out0_8 (F := Ideal) x0 x1 x2 x3 x4 x5 x6 (ix2 p q)
      = out (hid (fun j => x0 (ix2 p j)) (fun j => x1 (ix2 p j)) (fun j k => x2 (ix2 j k)) (fun j k => x4 (ix2 j k))
            (fun k => x3 (ix2 (0 : Fin 1) k)))
          (fun k => x5 (ix2 k (hi q))) (x6 (ix2 (0 : Fin 1) (hi q))) := by
  unfold out0_8
  simp only [View.ld_unit_zero (S := S5000x128) originOffsets, View.ld_unit_zero (S := S128x128) originOffsets,
    View.ld_unit_zero (S := S1x128) originOffsets, View.ld_unit_zero (S := S128x256) originOffsets,
    View.ld_unit_zero (S := S1x256) originOffsets]
  rw [Value.canon8_eq]
  have e : Value.ix8_0 (ix2 p q) = ix2 p (hi q) :=
    funext fun a => Fin.ext (by match a with | ⟨0, _⟩ => rfl | ⟨1, _⟩ => rfl)
  show k0_pay1 (F := Ideal) x0 x1 x2 x4 x3 x5 x6 (Value.ix8_0 (ix2 p q)) = _
  rw [e]
  exact pay_at x0 x1 x2 x4 x3 x5 x6 p (hi q)

end Cert.KernelIdeal.HeadValue

end
-- ==== Proof.HeadGrid.lean ====
/-
  The grid's geometry.

  Ten grid points; the two row-tiled inputs and both results are cut into ten blocks of 5000 rows, point `t` taking
  one row block of each, and every weight and bias array is taken whole at every point. These are facts about the
  printed index maps, decided once over the ten points. From them: an array index lies in a point's result block iff
  its row lies in that block's 5000 rows, and row `r` lies in row block `r / 5000`, so the blocks cover each result.
-/
import proofs.«132541_j67774583931485_2_alg».proof.Proof.Gen.KernelIdeal.Frame
import Idealize.ShloMosaic.Lib.Pipeline.Value
import Idealize.ShloMosaic.Lib.ValueIdx

noncomputable section

namespace Cert.KernelIdeal.HeadValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

/-! ## The grid's index maps -/

/-- Decided over the ten grid points: the two row-tiled inputs and the second result move with the first result's
    row block; every other window stays at its whole array; the row block number is at most nine. -/
theorem index_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0
    ∧ win0_8.index t (0 : Fin 2) = win0_7.index t (0 : Fin 2) ∧ win0_8.index t (1 : Fin 2) = 0
    ∧ win0_7.index t (0 : Fin 2) ≤ 9 :=
  (by decide +kernel : ∀ t : Fin grid0.N, _)

/-- Every one of the ten row blocks is some grid point's. -/
theorem index_onto : ∀ q0 : Fin 10, ∃ t : Fin cfg0.N, win0_7.index t (0 : Fin 2) = q0.val :=
  (by decide +kernel : ∀ q0 : Fin 10, ∃ t : Fin grid0.N, win0_7.index t (0 : Fin 2) = q0.val)

/-! ## The ten row blocks cover each result -/

/-- An index is in point `t`'s block of the first result iff each coordinate is in the block's range. -/
theorem mem_block7 (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v21_0).slice (win0_7.rect t)).set ↔ _
  rw [View.set_slice_whole, Rect.mem_set_unit]
  exact Iff.rfl

/-- The same for the second result. -/
theorem mem_block8 (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v21_1).slice (win0_8.rect t)).set ↔ _
  rw [View.set_slice_whole, Rect.mem_set_unit]
  exact Iff.rfl

/-- Row `r` lies in row block `r / 5000`, which some grid point writes. -/
theorem cover7 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  obtain ⟨t, ht⟩ := index_onto ⟨(i 0).val / 5000, by omega⟩
  have q0 : win0_7.index t (0 : Fin 2) = (i 0).val / 5000 := ht
  obtain ⟨-, -, -, -, -, -, -, -, -, -, -, -, -, -, e71, -⟩ := index_facts t
  refine ⟨t, flush0_7 t, ?_⟩
  rw [mem_block7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

theorem cover8 (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  obtain ⟨t, ht⟩ := index_onto ⟨(i 0).val / 5000, by omega⟩
  have q0 : win0_7.index t (0 : Fin 2) = (i 0).val / 5000 := ht
  obtain ⟨-, -, -, -, -, -, -, -, -, -, -, -, -, -, -, e80, e81, -⟩ := index_facts t
  refine ⟨t, flush0_8 t, ?_⟩
  rw [mem_block8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 128 ≤ (i 1).val ∧ (i 1).val < win0_8.index t (1 : Fin 2) * 128 + 128; omega

end Cert.KernelIdeal.HeadValue

end
-- ==== Proof.HeadReads.lean ====
/-
  The input blocks at a grid point, read where the arrays hold them.

  A block's element at block position `y` sits in its array at block number × block size + `y`, axis by axis. For the
  two row-tiled inputs that is row `5000 · (row block) + p`; for every array taken whole it is the position itself.
  Each read is first stated for an arbitrary array, where it is only arithmetic on coordinates, and then taken at the
  arrays the grid works from: the arrays no host operation wrote are the arguments as launched, and the bias row and
  the side-by-side arrays are read through what the host laid out.
-/
import proofs.«132541_j67774583931485_2_alg».proof.Proof.Gen.KernelIdeal.Frame
import proofs.«132541_j67774583931485_2_alg».proof.Proof.HeadOperands
import proofs.«132541_j67774583931485_2_alg».proof.Proof.HeadGrid
import Idealize.ShloMosaic.Lib.Pipeline.Value
import Idealize.ShloMosaic.Lib.ValueIdx

noncomputable section

namespace Cert.KernelIdeal.HeadValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## Over an arbitrary array: coordinates only -/

/-- Row `p` of the first window's block at point `t` is row `5000 · (row block of t) + p` of its array. -/
theorem rowBlock0_at (t : Fin cfg0.N) (A : S50000x128.Idx → EReal) (p : Fin 5000) (j : Fin 128) (r : Fin 50000)
    (hr : r.val = win0_7.index t (0 : Fin 2) * 5000 + p.val) :
    ((cfg0.win 0).blk t).view.read (Elt Ideal) A (ix2 p j) = A (ix2 r j) := by
  obtain ⟨e0, e1, -⟩ := index_facts t
  show A (((cfg0.win 0).blk t).view.emb (ix2 p j)) = _
  refine congrArg A (funext fun a => Fin.ext ?_)
  match a with
  | ⟨0, _⟩ => show win0_0.index t (0 : Fin 2) * 5000 + 1 * p.val = r.val; omega
  | ⟨1, _⟩ => show win0_0.index t (1 : Fin 2) * 128 + 1 * j.val = j.val; omega

/-- The same for the second window. -/
theorem rowBlock1_at (t : Fin cfg0.N) (A : S50000x128.Idx → EReal) (p : Fin 5000) (j : Fin 128) (r : Fin 50000)
    (hr : r.val = win0_7.index t (0 : Fin 2) * 5000 + p.val) :
    ((cfg0.win 1).blk t).view.read (Elt Ideal) A (ix2 p j) = A (ix2 r j) := by
  obtain ⟨-, -, e0, e1, -⟩ := index_facts t
  show A (((cfg0.win 1).blk t).view.emb (ix2 p j)) = _
  refine congrArg A (funext fun a => Fin.ext ?_)
  match a with
  | ⟨0, _⟩ => show win0_1.index t (0 : Fin 2) * 5000 + 1 * p.val = r.val; omega
  | ⟨1, _⟩ => show win0_1.index t (1 : Fin 2) * 128 + 1 * j.val = j.val; omega

/-- The third window's block is its whole 128 × 128 array. -/
theorem wholeBlock2_at (t : Fin cfg0.N) (A : S128x128.Idx → EReal) (j k : Fin 128) :
    ((cfg0.win 2).blk t).view.read (Elt Ideal) A (ix2 j k) = A (ix2 j k) := by
  obtain ⟨-, -, -, -, e0, e1, -⟩ := index_facts t
  show A (((cfg0.win 2).blk t).view.emb (ix2 j k)) = _
  refine congrArg A (funext fun a => Fin.ext ?_)
  match a with
  | ⟨0, _⟩ => show win0_2.index t (0 : Fin 2) * 128 + 1 * j.val = j.val; omega
  | ⟨1, _⟩ => show win0_2.index t (1 : Fin 2) * 128 + 1 * k.val = k.val; omega

/-- The fourth window's block is its whole 1 × 128 row. -/
theorem wholeBlock3_at (t : Fin cfg0.N) (A : S1x128.Idx → EReal) (k : Fin 128) :
    ((cfg0.win 3).blk t).view.read (Elt Ideal) A (ix2 (0 : Fin 1) k) = A (ix2 (0 : Fin 1) k) := by
  obtain ⟨-, -, -, -, -, -, e0, e1, -⟩ := index_facts t
  show A (((cfg0.win 3).blk t).view.emb (ix2 (0 : Fin 1) k)) = _
  refine congrArg A (funext fun a => Fin.ext ?_)
  match a with
  | ⟨0, _⟩ => show win0_3.index t (0 : Fin 2) * 1 + 1 * 0 = 0; omega
  | ⟨1, _⟩ => show win0_3.index t (1 : Fin 2) * 128 + 1 * k.val = k.val; omega

/-- The fifth window's block is its whole 128 × 128 array. -/
theorem wholeBlock4_at (t : Fin cfg0.N) (A : S128x128.Idx → EReal) (j k : Fin 128) :
    ((cfg0.win 4).blk t).view.read (Elt Ideal) A (ix2 j k) = A (ix2 j k) := by
  obtain ⟨-, -, -, -, -, -, -, -, e0, e1, -⟩ := index_facts t
  show A (((cfg0.win 4).blk t).view.emb (ix2 j k)) = _
  refine congrArg A (funext fun a => Fin.ext ?_)
  match a with
  | ⟨0, _⟩ => show win0_4.index t (0 : Fin 2) * 128 + 1 * j.val = j.val; omega
  | ⟨1, _⟩ => show win0_4.index t (1 : Fin 2) * 128 + 1 * k.val = k.val; omega

/-- The sixth window's block is its whole 128 × 256 array. -/
theorem wholeBlock5_at (t : Fin cfg0.N) (A : S128x256.Idx → EReal) (k : Fin 128) (q : Fin 256) :
    ((cfg0.win 5).blk t).view.read (Elt Ideal) A (ix2 k q) = A (ix2 k q) := by
  obtain ⟨-, -, -, -, -, -, -, -, -, -, e0, e1, -⟩ := index_facts t
  show A (((cfg0.win 5).blk t).view.emb (ix2 k q)) = _
  refine congrArg A (funext fun a => Fin.ext ?_)
  match a with
  | ⟨0, _⟩ => show win0_5.index t (0 : Fin 2) * 128 + 1 * k.val = k.val; omega
  | ⟨1, _⟩ => show win0_5.index t (1 : Fin 2) * 256 + 1 * q.val = q.val; omega

/-- The seventh window's block is its whole 1 × 256 row. -/
theorem wholeBlock6_at (t : Fin cfg0.N) (A : S1x256.Idx → EReal) (q : Fin 256) :
    ((cfg0.win 6).blk t).view.read (Elt Ideal) A (ix2 (0 : Fin 1) q) = A (ix2 (0 : Fin 1) q) := by
  obtain ⟨-, -, -, -, -, -, -, -, -, -, -, -, e0, e1, -⟩ := index_facts t
  show A (((cfg0.win 6).blk t).view.emb (ix2 (0 : Fin 1) q)) = _
  refine congrArg A (funext fun a => Fin.ext ?_)
  match a with
  | ⟨0, _⟩ => show win0_6.index t (0 : Fin 2) * 1 + 1 * 0 = 0; omega
  | ⟨1, _⟩ => show win0_6.index t (1 : Fin 2) * 256 + 1 * q.val = q.val; omega

/-! ## At the arrays the grid works from -/

/-- Row `p` of the messages' block at point `t` is row `5000 · (row block of t) + p` of the aggregated messages. -/
theorem aggBlock_at (c : Dev nD) (t : Fin cfg0.N) (p : Fin 5000) (j : Fin 128) (r : Fin 50000)
    (hr : r.val = win0_7.index t (0 : Fin 2) * 5000 + p.val) :
    iblk m c 0 t (ix2 p j) = (V m c main_v16 : S50000x128.Idx → EReal) (ix2 r j) :=
  rowBlock0_at t (V m c main_v16) p j r hr

/-- The same for the node features, which no host operation touches. -/
theorem featBlock_at (c : Dev nD) (t : Fin cfg0.N) (p : Fin 5000) (j : Fin 128) (r : Fin 50000)
    (hr : r.val = win0_7.index t (0 : Fin 2) * 5000 + p.val) :
    iblk m c 1 t (ix2 p j) = m ((c : Thread nD τ).loc main_arg0) (ix2 r j) :=
  (rowBlock1_at t (V m c main_arg0) p j r hr).trans (congrFun (V_main_arg0 m c) (ix2 r j))

/-- The neighbour weights' block is the whole matrix, as launched. -/
theorem relBlock_at (c : Dev nD) (t : Fin cfg0.N) (j k : Fin 128) :
    iblk m c 2 t (ix2 j k) = m ((c : Thread nD τ).loc main_arg3) (ix2 j k) :=
  (wholeBlock2_at t (V m c main_arg3) j k).trans (congrFun (V_main_arg3 m c) (ix2 j k))

/-- The bias row's block is the whole row: the convolution bias. -/
theorem biasBlock_at (c : Dev nD) (t : Fin cfg0.N) (k : Fin 128) :
    iblk m c 3 t (ix2 (0 : Fin 1) k) = m ((c : Thread nD τ).loc main_arg4) (ix1 k) :=
  (wholeBlock3_at t (V m c main_v17) k).trans (biasRow_at m c k)

/-- The root weights' block is the whole matrix, as launched. -/
theorem rootBlock_at (c : Dev nD) (t : Fin cfg0.N) (j k : Fin 128) :
    iblk m c 4 t (ix2 j k) = m ((c : Thread nD τ).loc main_arg5) (ix2 j k) :=
  (wholeBlock4_at t (V m c main_arg5) j k).trans (congrFun (V_main_arg5 m c) (ix2 j k))

/-- The side-by-side weights' block is the whole 128 × 256 array. -/
theorem sideWeightsBlock_at (c : Dev nD) (t : Fin cfg0.N) (k : Fin 128) (q : Fin 256) :
    iblk m c 5 t (ix2 k q) = (V m c main_v18 : S128x256.Idx → EReal) (ix2 k q) :=
  wholeBlock5_at t (V m c main_v18) k q

/-- The side-by-side bias row's block is the whole row. -/
theorem sideBiasBlock_at (c : Dev nD) (t : Fin cfg0.N) (q : Fin 256) :
    iblk m c 6 t (ix2 (0 : Fin 1) q) = (V m c main_v20 : S1x256.Idx → EReal) (ix2 (0 : Fin 1) q) :=
  wholeBlock6_at t (V m c main_v20) q

end Cert.KernelIdeal.HeadValue

end
-- ==== Proof.HeadArrays.lean ====
/-
  From what each grid point writes to the two result arrays.

  At block position `(p, q)` point `t` writes the body's value at row `p` and side-by-side column `q` (first
  result) or `q + 128` (second result). By the body's arithmetic at an entry, the block reads and the reads of the
  host-prepared arrays, that is entry `(5000 · (row block of t) + p, q)` of the mean head, respectively of the
  log-deviation head: a head entry uses only its own row of the messages and features, so a block is a restriction
  of the whole-array head. The ten row blocks cover the 50000 rows, so after the run each result array is that head.
-/
import proofs.«132541_j67774583931485_2_alg».proof.Proof.Gen.KernelIdeal.Value
import proofs.«132541_j67774583931485_2_alg».proof.Proof.HeadSpec
import proofs.«132541_j67774583931485_2_alg».proof.Proof.HeadBlocks
import proofs.«132541_j67774583931485_2_alg».proof.Proof.HeadOperands
import proofs.«132541_j67774583931485_2_alg».proof.Proof.HeadGrid
import proofs.«132541_j67774583931485_2_alg».proof.Proof.HeadReads
import Idealize.ShloMosaic.Lib.Pipeline.Value

noncomputable section

namespace Cert.KernelIdeal.HeadValue

open Cert.KernelIdeal Cert.KernelIdeal.Gen Idealize.ShloMosaic Idealize.ShloMosaic.TcCoe Idealize.SL.Sem
open Idealize.ShloMosaic.ValueIdx Cert.GraphConvHead
open Idealize.ShloMosaic.Pipeline (Dat)

variable (m : (ℓ : Loc nD τ sig) → Buf (Elt Ideal) ℓ) (ρ : Dev nD → PrngReg)

/-! ## A block that agrees with an array under the block's embedding is the array read through the block -/

/-- For the first result's window: a block `O` that agrees, position by position, with an array `G` at the array index
    under each block position is `G` read through point `t`'s block. -/
theorem read_of_pointwise7 (O : Vec Ideal S5000x128 .f32) (G : S50000x128.Idx → EReal) (t : Fin cfg0.N)
    (h : ∀ y : S5000x128.Idx, O y = G (((cfg0.win 7).blk t).view.emb y)) :
    (cfg0.win 7).cut (grid0.coords t) O = ((cfg0.win 7).blk t).view.read (Elt Ideal) G := by
  funext y
  exact h y

/-- The same for the second result's window. -/
theorem read_of_pointwise8 (O : Vec Ideal S5000x128 .f32) (G : S50000x128.Idx → EReal) (t : Fin cfg0.N)
    (h : ∀ y : S5000x128.Idx, O y = G (((cfg0.win 8).blk t).view.emb y)) :
    (cfg0.win 8).cut (grid0.coords t) O = ((cfg0.win 8).blk t).view.read (Elt Ideal) G := by
  funext y
  exact h y

/-! ## What a grid point writes back is a block of the heads -/

/-- Block position `(p, q)` of the first result at point `t` is the mean head at the array index under it. -/
theorem meanBlock_at (c : Dev nD) (t : Fin cfg0.N) (y : S5000x128.Idx) :
    out0_7 (F := Ideal) (iblk m c 0 t) (iblk m c 1 t) (iblk m c 2 t) (iblk m c 3 t) (iblk m c 4 t) (iblk m c 5 t) (iblk m c 6 t) y
      = meanHead m c (((cfg0.win 7).blk t).view.emb y) := by
  obtain ⟨p, q, rfl⟩ : ∃ (p : Fin 5000) (q : Fin 128), y = ix2 p q := ⟨y 0, y 1, eq_ix2 y⟩
  obtain ⟨-, -, -, -, -, -, -, -, -, -, -, -, -, -, e71, -, -, hle⟩ := index_facts t
  have hp : p.val < 5000 := p.isLt
  have hemb : ((cfg0.win 7).blk t).view.emb (ix2 p q)
      = ix2 (⟨win0_7.index t (0 : Fin 2) * 5000 + p.val, by omega⟩ : Fin 50000) q :=
    funext fun a => Fin.ext (by
      match a with
      | ⟨0, _⟩ => show win0_7.index t (0 : Fin 2) * 5000 + 1 * p.val = win0_7.index t (0 : Fin 2) * 5000 + p.val; omega
      | ⟨1, _⟩ => show win0_7.index t (1 : Fin 2) * 128 + 1 * q.val = q.val; omega)
  rw [hemb]
  refine (firstStore_at (iblk m c 0 t) (iblk m c 1 t) (iblk m c 2 t) (iblk m c 3 t) (iblk m c 4 t) (iblk m c 5 t)
    (iblk m c 6 t) p q).trans ?_
  unfold meanHead head headAt
  exact entry_congr (fun j => aggBlock_at m c t p j _ rfl) (fun j => featBlock_at m c t p j _ rfl)
    (fun j k => relBlock_at m c t j k) (fun j k => rootBlock_at m c t j k) (fun k => biasBlock_at m c t k)
    (fun k => (sideWeightsBlock_at m c t k (lo q)).trans (sideWeights_lo m c k q))
    ((sideBiasBlock_at m c t (lo q)).trans (sideBias_lo m c q))

/-- Block position `(p, q)` of the second result at point `t` is the log-deviation head at the array index under it. -/
theorem logDevBlock_at (c : Dev nD) (t : Fin cfg0.N) (y : S5000x128.Idx) :
    out0_8 (F := Ideal) (iblk m c 0 t) (iblk m c 1 t) (iblk m c 2 t) (iblk m c 3 t) (iblk m c 4 t) (iblk m c 5 t) (iblk m c 6 t) y
      = logDevHead m c (((cfg0.win 8).blk t).view.emb y) := by
  obtain ⟨p, q, rfl⟩ : ∃ (p : Fin 5000) (q : Fin 128), y = ix2 p q := ⟨y 0, y 1, eq_ix2 y⟩
  obtain ⟨-, -, -, -, -, -, -, -, -, -, -, -, -, -, -, e80, e81, hle⟩ := index_facts t
  have hp : p.val < 5000 := p.isLt
  have hemb : ((cfg0.win 8).blk t).view.emb (ix2 p q)
      = ix2 (⟨win0_7.index t (0 : Fin 2) * 5000 + p.val, by omega⟩ : Fin 50000) q :=
    funext fun a => Fin.ext (by
      match a with
      | ⟨0, _⟩ => show win0_8.index t (0 : Fin 2) * 5000 + 1 * p.val = win0_7.index t (0 : Fin 2) * 5000 + p.val; omega
      | ⟨1, _⟩ => show win0_8.index t (1 : Fin 2) * 128 + 1 * q.val = q.val; omega)
  rw [hemb]
  refine (secondStore_at (iblk m c 0 t) (iblk m c 1 t) (iblk m c 2 t) (iblk m c 3 t) (iblk m c 4 t) (iblk m c 5 t)
    (iblk m c 6 t) p q).trans ?_
  unfold logDevHead head headAt
  exact entry_congr (fun j => aggBlock_at m c t p j _ rfl) (fun j => featBlock_at m c t p j _ rfl)
    (fun j k => relBlock_at m c t j k) (fun j k => rootBlock_at m c t j k) (fun k => biasBlock_at m c t k)
    (fun k => (sideWeightsBlock_at m c t k (hi q)).trans (sideWeights_hi m c k q))
    ((sideBiasBlock_at m c t (hi q)).trans (sideBias_hi m c q))

/-- WHAT POINT `t` WRITES BACK to the first result is block `t` of the mean head. -/
theorem flushedMean_eq (c : Dev nD) (t : Fin cfg0.N) :
    (dats m 0 c).flushed 7 t = ((cfg0.win 7).blk t).view.read (Elt Ideal) (meanHead m c) := by
  rw [Value.flushed7]
  exact read_of_pointwise7 _ _ t (meanBlock_at m c t)

/-- WHAT POINT `t` WRITES BACK to the second result is block `t` of the log-deviation head. -/
theorem flushedLogDev_eq (c : Dev nD) (t : Fin cfg0.N) :
    (dats m 0 c).flushed 8 t = ((cfg0.win 8).blk t).view.read (Elt Ideal) (logDevHead m c) := by
  rw [Value.flushed8]
  exact read_of_pointwise8 _ _ t (logDevBlock_at m c t)

/-! ## The two arrays after the run, and the run -/

/-- After the run the first result is the mean head. -/
theorem finalMean (c : Dev nD) : (dats m 0 c).arrAt 7 cfg0.N = meanHead m c :=
  (dats m 0 c).arrAt_eq_of_cover 7 (meanHead m c) (fun t _ => flushedMean_eq m c t) cover7

/-- After the run the second result is the log-deviation head. -/
theorem finalLogDev (c : Dev nD) : (dats m 0 c).arrAt 8 cfg0.N = logDevHead m c :=
  (dats m 0 c).arrAt_eq_of_cover 8 (logDevHead m c) (fun t _ => flushedLogDev_eq m c t) cover8

/-- Every weakly fair execution of the kernel's program ends with the two results at the two heads and the arguments
    unchanged. -/
theorem run : θ_run defs (onTc (τ := τ) (main (F := Ideal))) ⟨m, fun _ => 0, ρ⟩ fun r => ∀ c : Dev nD,
      r.2.mem ((c : Thread nD τ).loc main_v21_0) = meanHead m c
      ∧ r.2.mem ((c : Thread nD τ).loc main_v21_1) = logDevHead m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (finalMean m c), (h c).2.1.trans (finalLogDev m c), (h c).2.2⟩)
    (Value.run_blocks m ρ)

end Cert.KernelIdeal.HeadValue

end
-- ==== Proof.HeadAggregate.lean ====
/-
  The aggregated neighbour messages are one term in both programs.

  Both programs begin with the same host operations: split the edge list into sources and destinations, wrap negative
  source indices, gather the source rows of the node features, scale each gathered row by its edge weight, and add the
  scaled rows into their destination rows of a zero array. The array the kernel's grid finds in its first window is
  therefore the reference's aggregation stage applied to the same three arguments. The equation is between the two
  programs' texts; the aggregation is never opened.
-/
import proofs.«132541_j67774583931485_2_alg».proof.Proof.Gen.KernelIdeal.Frame
import proofs.«132541_j67774583931485_2_alg».proof.Proof.Gen.ReferenceIdeal.Read
import Idealize.ShloMosaic.Lib.StableHlo.Run

noncomputable section

namespace Cert.KernelIdeal.HeadValue

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 800000 in
/-- What the grid's first window holds is the reference's aggregation of the node features, the edge list and the
    edge weights. -/
theorem V_aggregate (c : Dev nD) :
    (V m c main_v16 : S50000x128.Idx → EReal)
      = Cert.ReferenceIdeal.Read.val_main_v16 (F := Ideal) (m ((c : Thread nD τ).loc main_arg0))
          (m ((c : Thread nD τ).loc main_arg1)) (m ((c : Thread nD τ).loc main_arg2)) := by
  dsimp only [Gen.V, Gen.hostOps0]; after_results; rfl

end Cert.KernelIdeal.HeadValue

end
-- ==== Proof.HeadBridge.lean ====
/-
  The kernel's two heads, restated over the reference's aggregation stage.

  The heads the kernel's run ends at are stated over the array its grid finds in its first window. That array is the
  reference's aggregation of the same three arguments, so the kernel's heads are the specification's heads of exactly
  the terms the reference's results are heads of.
-/
import proofs.«132541_j67774583931485_2_alg».proof.Proof.HeadBlocks
import proofs.«132541_j67774583931485_2_alg».proof.Proof.HeadAggregate

noncomputable section

namespace Cert.KernelIdeal.HeadValue

open Cert.KernelIdeal Cert.KernelIdeal.Gen Idealize.ShloMosaic Idealize.ShloMosaic.TcCoe Idealize.SL.Sem
open Cert.GraphConvHead

variable (m : (ℓ : Loc nD τ sig) → Buf (Elt Ideal) ℓ)

/-- The mean head over the arguments alone. -/
theorem meanHead_eq (c : Dev nD) :
    meanHead m c
      = head (Cert.ReferenceIdeal.Read.val_main_v16 (F := Ideal) (m ((c : Thread nD τ).loc main_arg0))
            (m ((c : Thread nD τ).loc main_arg1)) (m ((c : Thread nD τ).loc main_arg2)))
          (m ((c : Thread nD τ).loc main_arg0)) (m ((c : Thread nD τ).loc main_arg3)) (m ((c : Thread nD τ).loc main_arg4))
          (m ((c : Thread nD τ).loc main_arg5)) (m ((c : Thread nD τ).loc main_arg6)) (m ((c : Thread nD τ).loc main_arg7)) := by
  unfold meanHead
  rw [V_aggregate]

/-- The log-deviation head over the arguments alone. -/
theorem logDevHead_eq (c : Dev nD) :
    logDevHead m c
      = head (Cert.ReferenceIdeal.Read.val_main_v16 (F := Ideal) (m ((c : Thread nD τ).loc main_arg0))
            (m ((c : Thread nD τ).loc main_arg1)) (m ((c : Thread nD τ).loc main_arg2)))
          (m ((c : Thread nD τ).loc main_arg0)) (m ((c : Thread nD τ).loc main_arg3)) (m ((c : Thread nD τ).loc main_arg4))
          (m ((c : Thread nD τ).loc main_arg5)) (m ((c : Thread nD τ).loc main_arg8)) (m ((c : Thread nD τ).loc main_arg9)) := by
  unfold logDevHead
  rw [V_aggregate]

end Cert.KernelIdeal.HeadValue

end
-- ==== Proof.HeadReference.lean ====
/-
  The reference computes the two heads of the specification.

  After the aggregation the reference forms, over all 50000 nodes at once, the neighbour product, adds the bias
  repeated down the rows, adds the root product, rectifies, and then applies each head separately: the hidden array
  against that head's 128 × 128 weights, plus its bias repeated down the rows, rectified. Read one entry at a time —
  a product as the sum over the contracted coordinate, a repeated bias as the bias entry of the column, the zero array
  as zero — the hidden array at `(r, k)` is feature `k` of node `r`'s hidden row, and each result at `(r, q)` is
  the specification's head entry. The aggregation stage stays closed: it enters only through its rows, as a variable.
-/
import proofs.«132541_j67774583931485_2_alg».proof.Proof.Gen.ReferenceIdeal.Read
import proofs.«132541_j67774583931485_2_alg».proof.Proof.HeadSpec

noncomputable section

open scoped BigOperators

namespace Cert.ReferenceIdeal.HeadValue

open Cert.ReferenceIdeal Cert.ReferenceIdeal.Read Idealize.ShloMosaic Idealize.ShloMosaic.ValueIdx Cert.GraphConvHead

variable (x0 : (⟨S50000x128, .f32⟩ : BufTy).Contents (Elt Ideal)) (x1 : (⟨S2x800000, .i32⟩ : BufTy).Contents (Elt Ideal))
  (x2 : (⟨S800000, .f32⟩ : BufTy).Contents (Elt Ideal)) (x3 : (⟨S128x128, .f32⟩ : BufTy).Contents (Elt Ideal))
  (x4 : (⟨S128, .f32⟩ : BufTy).Contents (Elt Ideal)) (x5 x6 : (⟨S128x128, .f32⟩ : BufTy).Contents (Elt Ideal))
  (x7 : (⟨S128, .f32⟩ : BufTy).Contents (Elt Ideal)) (x8 : (⟨S128x128, .f32⟩ : BufTy).Contents (Elt Ideal))
  (x9 : (⟨S128, .f32⟩ : BufTy).Contents (Elt Ideal))

/-- The zero word is the real number zero. -/
theorem zero_word : (FloatOps.ofBits (F := Ideal) .f32 0x00000000#32 : EReal) = 0 := Ideal.ofBits_zero_f32

/-- The hidden array at `(r, k)` is feature `k` of node `r`'s hidden row. -/
theorem hidden_at (r : Fin 50000) (k : Fin 128) :
    val_main_v23 (F := Ideal) x0 x1 x2 x3 x4 x5 (ix2 r k)
      = hid (fun j => val_main_v16 (F := Ideal) x0 x1 x2 (ix2 r j)) (fun j => x0 (ix2 r j))
          (fun j k => x3 (ix2 j k)) (fun j k => x5 (ix2 j k)) (fun k => x4 (ix1 k)) k := by
  have el17 : ∀ j : Fin 128, lidx_main_v17 (ix2 r k) j = ix2 r j := fun j =>
    funext fun a => by match a with | ⟨0, _⟩ => rfl | ⟨1, _⟩ => rfl
  have er17 : ∀ j : Fin 128, ridx_main_v17 (ix2 r k) j = ix2 j k := fun j =>
    funext fun a => by match a with | ⟨0, _⟩ => rfl | ⟨1, _⟩ => rfl
  have el21 : ∀ j : Fin 128, lidx_main_v21 (ix2 r k) j = ix2 r j := fun j =>
    funext fun a => by match a with | ⟨0, _⟩ => rfl | ⟨1, _⟩ => rfl
  have er21 : ∀ j : Fin 128, ridx_main_v21 (ix2 r k) j = ix2 j k := fun j =>
    funext fun a => by match a with | ⟨0, _⟩ => rfl | ⟨1, _⟩ => rfl
  have e19 : idx_main_v19 (ix2 r k) = ix2 (0 : Fin 1) k :=
    funext fun a => by match a with | ⟨0, _⟩ => rfl | ⟨1, _⟩ => rfl
  have e18 : idx_main_v18 (ix2 (0 : Fin 1) k) = ix1 k :=
    funext fun a => by match a with | ⟨0, _⟩ => rfl
  rw [val_main_v23_apply, val_main_v22_apply, val_main_v20_apply, val_main_v17_apply, val_main_v21_apply,
    val_main_v19_apply, e19, val_main_v18_apply, e18, val_main_call0_v0_apply, val_main_call0_cst_apply, zero_word]
  generalize val_main_v16 (F := Ideal) x0 x1 x2 = A
  have s17 : (∑ j : Fin 128, A (lidx_main_v17 (ix2 r k) j) * x3 (ridx_main_v17 (ix2 r k) j))
      = ∑ j : Fin 128, A (ix2 r j) * x3 (ix2 j k) := Finset.sum_congr rfl fun j _ => by rw [el17, er17]
  have s21 : (∑ j : Fin 128, x0 (lidx_main_v21 (ix2 r k) j) * x5 (ridx_main_v21 (ix2 r k) j))
      = ∑ j : Fin 128, x0 (ix2 r j) * x5 (ix2 j k) := Finset.sum_congr rfl fun j _ => by rw [el21, er21]
  rw [s17, s21, Ideal.maximumf_def, Ideal.addf_def, Ideal.addf_def]
  unfold hid
  rfl

/-- The first result at `(r, q)`: the hidden row of node `r` against column `q` of the mean head's weights, plus its
    bias, rectified. -/
theorem mean_at (r : Fin 50000) (q : Fin 128) :
    val_main_v28 (F := Ideal) x0 x1 x2 x3 x4 x5 x6 x7 (ix2 r q)
      = headAt (val_main_v16 (F := Ideal) x0 x1 x2) x0 x3 x4 x5 x6 x7 r q := by
  have el : ∀ k : Fin 128, lidx_main_v24 (ix2 r q) k = ix2 r k := fun k =>
    funext fun a => by match a with | ⟨0, _⟩ => rfl | ⟨1, _⟩ => rfl
  have er : ∀ k : Fin 128, ridx_main_v24 (ix2 r q) k = ix2 k q := fun k =>
    funext fun a => by match a with | ⟨0, _⟩ => rfl | ⟨1, _⟩ => rfl
  have eb2 : idx_main_v26 (ix2 r q) = ix2 (0 : Fin 1) q :=
    funext fun a => by match a with | ⟨0, _⟩ => rfl | ⟨1, _⟩ => rfl
  have eb1 : idx_main_v25 (ix2 (0 : Fin 1) q) = ix1 q :=
    funext fun a => by match a with | ⟨0, _⟩ => rfl
  have sdot : (∑ k : Fin 128, val_main_v23 (F := Ideal) x0 x1 x2 x3 x4 x5 (lidx_main_v24 (ix2 r q) k) * x6 (ridx_main_v24 (ix2 r q) k))
      = ∑ k : Fin 128, hid (fun j => val_main_v16 (F := Ideal) x0 x1 x2 (ix2 r j)) (fun j => x0 (ix2 r j))
          (fun j k => x3 (ix2 j k)) (fun j k => x5 (ix2 j k)) (fun k => x4 (ix1 k)) k * x6 (ix2 k q) :=
    Finset.sum_congr rfl fun k _ => by rw [el, er, hidden_at]
  rw [val_main_v28_apply, val_main_v27_apply, val_main_v24_apply, sdot, val_main_v26_apply, eb2, val_main_v25_apply, eb1,
    val_main_call1_v0_apply, val_main_call1_cst_apply, zero_word, Ideal.maximumf_def, Ideal.addf_def]
  generalize val_main_v16 (F := Ideal) x0 x1 x2 = A
  unfold headAt out
  rfl

/-- The second result at `(r, q)`: the same hidden row against column `q` of the log-deviation head's weights, plus its
    bias, rectified. -/
theorem logDev_at (r : Fin 50000) (q : Fin 128) :
    val_main_v33 (F := Ideal) x0 x1 x2 x3 x4 x5 x8 x9 (ix2 r q)
      = headAt (val_main_v16 (F := Ideal) x0 x1 x2) x0 x3 x4 x5 x8 x9 r q := by
  have el : ∀ k : Fin 128, lidx_main_v29 (ix2 r q) k = ix2 r k := fun k =>
    funext fun a => by match a with | ⟨0, _⟩ => rfl | ⟨1, _⟩ => rfl
  have er : ∀ k : Fin 128, ridx_main_v29 (ix2 r q) k = ix2 k q := fun k =>
    funext fun a => by match a with | ⟨0, _⟩ => rfl | ⟨1, _⟩ => rfl
  have eb2 : idx_main_v31 (ix2 r q) = ix2 (0 : Fin 1) q :=
    funext fun a => by match a with | ⟨0, _⟩ => rfl | ⟨1, _⟩ => rfl
  have eb1 : idx_main_v30 (ix2 (0 : Fin 1) q) = ix1 q :=
    funext fun a => by match a with | ⟨0, _⟩ => rfl
  have sdot : (∑ k : Fin 128, val_main_v23 (F := Ideal) x0 x1 x2 x3 x4 x5 (lidx_main_v29 (ix2 r q) k) * x8 (ridx_main_v29 (ix2 r q) k))
      = ∑ k : Fin 128, hid (fun j => val_main_v16 (F := Ideal) x0 x1 x2 (ix2 r j)) (fun j => x0 (ix2 r j))
          (fun j k => x3 (ix2 j k)) (fun j k => x5 (ix2 j k)) (fun k => x4 (ix1 k)) k * x8 (ix2 k q) :=
    Finset.sum_congr rfl fun k _ => by rw [el, er, hidden_at]
  rw [val_main_v33_apply, val_main_v32_apply, val_main_v29_apply, sdot, val_main_v31_apply, eb2, val_main_v30_apply, eb1,
    val_main_call2_v0_apply, val_main_call2_cst_apply, zero_word, Ideal.maximumf_def, Ideal.addf_def]
  generalize val_main_v16 (F := Ideal) x0 x1 x2 = A
  unfold headAt out
  rfl

/-- The first result is the mean head of the specification. -/
theorem mean_eq :
    val_main_v28 (F := Ideal) x0 x1 x2 x3 x4 x5 x6 x7 = head (val_main_v16 (F := Ideal) x0 x1 x2) x0 x3 x4 x5 x6 x7 := by
  funext i
  obtain ⟨r, q, rfl⟩ : ∃ (r : Fin 50000) (q : Fin 128), i = ix2 r q := ⟨i 0, i 1, eq_ix2 i⟩
  rw [mean_at]
  generalize val_main_v16 (F := Ideal) x0 x1 x2 = A
  rfl

/-- The second result is the log-deviation head of the specification. -/
theorem logDev_eq :
    val_main_v33 (F := Ideal) x0 x1 x2 x3 x4 x5 x8 x9 = head (val_main_v16 (F := Ideal) x0 x1 x2) x0 x3 x4 x5 x8 x9 := by
  funext i
  obtain ⟨r, q, rfl⟩ : ∃ (r : Fin 50000) (q : Fin 128), i = ix2 r q := ⟨i 0, i 1, eq_ix2 i⟩
  rw [logDev_at]
  generalize val_main_v16 (F := Ideal) x0 x1 x2 = A
  rfl

end Cert.ReferenceIdeal.HeadValue

end
-- ==== Proof.lean ====
/-
  A variational graph-convolution encoder: the kernel against its reference, on the extended reals.

  Both programs first aggregate, on the host and by the same operations, the neighbour messages: each edge gathers its
  source node's features, scales them by the edge weight, and the scaled rows are added into the destination nodes.
  Both then form the hidden features `max ((agg · W_rel + b_rel) + x · W_root, 0)` and two heads
  `max (hidden · W + b, 0)`, one with `(W_mu, b_mu)` and one with `(W_std, b_std)`.
  The kernel does the second part on a grid of ten blocks of 5000 nodes, narrows its operands to a shorter float
  format before each product (the identity on the extended reals), and computes both heads with ONE product against
  the two weight matrices laid side by side, splitting the 256 columns afterwards; the reference uses two products.
  Column `q` of the side-by-side product is the same sum over the hidden features as column `q` of the separate
  product, so entry by entry the two programs compute one function. No law that needs finiteness is used: every step
  is a sum, product or maximum of extended reals read the same way on both sides, and the shared aggregation is
  never opened. The idealization rewrote nothing, so its conjunct is trivial; the frames are the generated ones.
-/
import proofs.«132541_j67774583931485_2_alg».proof.Defs
import proofs.«132541_j67774583931485_2_alg».proof.Proof.Gen.Kernel
import proofs.«132541_j67774583931485_2_alg».proof.Proof.Gen.Kernel.Frame
import proofs.«132541_j67774583931485_2_alg».proof.Proof.Gen.KernelIdeal
import proofs.«132541_j67774583931485_2_alg».proof.Proof.Gen.KernelIdeal.Frame
import proofs.«132541_j67774583931485_2_alg».proof.Proof.Gen.KernelIdeal.Value
import proofs.«132541_j67774583931485_2_alg».proof.Proof.Gen.ReferenceIdeal
import proofs.«132541_j67774583931485_2_alg».proof.Proof.Gen.ReferenceIdeal.Run
import proofs.«132541_j67774583931485_2_alg».proof.Proof.Gen.ReferenceIdeal.Read
import proofs.«132541_j67774583931485_2_alg».proof.Proof.Gen.Pre_finite_inputs
import proofs.«132541_j67774583931485_2_alg».proof.Proof.HeadArrays
import proofs.«132541_j67774583931485_2_alg».proof.Proof.HeadBridge
import proofs.«132541_j67774583931485_2_alg».proof.Proof.HeadReference

noncomputable section

namespace Cert.Proof

open Idealize.ShloMosaic Idealize.ShloMosaic.TcCoe Idealize.SL.Sem

/-- The kernel as printed runs, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- The reference's first result, from a memory that agrees with the kernel's on the arguments, is the kernel's mean
    head: both are the specification's head of the same aggregation of the same arguments. -/
theorem mean_meet (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Read.val_main_v28 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7))
      = Cert.KernelIdeal.HeadValue.meanHead m c := by
  rw [Cert.ReferenceIdeal.HeadValue.mean_eq, h0, h1, h2, h3, h4, h5, h6, h7]
  exact (Cert.KernelIdeal.HeadValue.meanHead_eq m c).symm

/-- The same for the second result and the log-deviation head. -/
theorem logDev_meet (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Read.val_main_v33 (F := Ideal) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg8))
        (m' ((c.tc : Thread Cert.ReferenceIdeal.nD Cert.ReferenceIdeal.τ).loc Cert.ReferenceIdeal.main_arg9))
      = Cert.KernelIdeal.HeadValue.logDevHead m c := by
  rw [Cert.ReferenceIdeal.HeadValue.logDev_eq, h0, h1, h2, h3, h4, h5, h8, h9]
  exact (Cert.KernelIdeal.HeadValue.logDevHead_eq m c).symm

/-- From memories that agree on the ten arguments both programs end with the mean head in the first result and the
    log-deviation head in the second: the kernel by its grid's blocks, the reference by its stages read one entry at a
    time, both heads stated over the same aggregation of the same arguments. -/
theorem algebraic : Cert.algebraic_KernelIdeal_ReferenceIdeal := by
  intro m ρ m' ρ' _ hagree
  refine ⟨fun c => Cert.KernelIdeal.HeadValue.meanHead m c, fun c => Cert.KernelIdeal.HeadValue.logDevHead m c,
    Cert.KernelIdeal.HeadValue.run m ρ, ?_⟩
  refine (θ_run Cert.ReferenceIdeal.defs _ _).mono (fun r h c => ⟨?_, ?_, (h c).2.2⟩)
    (Cert.ReferenceIdeal.Value.run (F := Ideal) m' ρ')
  · exact (h c).1.trans ((Cert.ReferenceIdeal.Read.val_main_v28_eq (F := Ideal) _ _ _ _ _ _ _ _).trans
      (mean_meet m m' c (hagree c).1 (hagree c).2.1 (hagree c).2.2.1 (hagree c).2.2.2.1 (hagree c).2.2.2.2.1 (hagree c).2.2.2.2.2.1 (hagree c).2.2.2.2.2.2.1 (hagree c).2.2.2.2.2.2.2.1))
  · exact (h c).2.1.trans ((Cert.ReferenceIdeal.Read.val_main_v33_eq (F := Ideal) _ _ _ _ _ _ _ _).trans
      (logDev_meet m m' c (hagree c).1 (hagree c).2.1 (hagree c).2.2.1 (hagree c).2.2.2.1 (hagree c).2.2.2.2.1 (hagree c).2.2.2.2.2.1 (hagree c).2.2.2.2.2.2.2.2.1 (hagree c).2.2.2.2.2.2.2.2.2))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
